-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x64 : Shape := ⟨2, ![128, 64]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S1600000 : S_.BroadcastsInDim S1600000 (![] : Fin 0 → Fin S1600000.rank)
  reducesTo_S1600000_S_d0 : S1600000.ReducesTo [0] S_

variable [Facts]

def fn {F : FTy → Type} [FloatOps F] (main_arg0 : FVec F S100000x128 .f32) (main_arg1 : FVec F S128x64 .f32) (main_arg2 : IVec S1600000 32) (main_arg3 : IVec S1600000 32) (main_arg4 : FVec F S1600000 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S1600000 .f32 := Host.absf main_arg4
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  main_v13
-- ==== Kernel.lean ====
abbrev S100000x128 : Shape := ⟨2, ![100000, 128]⟩
abbrev S128x64 : Shape := ⟨2, ![128, 64]⟩
abbrev S1600000 : Shape := ⟨1, ![1600000]⟩
abbrev S100000x64 : Shape := ⟨2, ![100000, 64]⟩
abbrev S10000x128 : Shape := ⟨2, ![10000, 128]⟩
abbrev S10000x64 : Shape := ⟨2, ![10000, 64]⟩
abbrev S_ : Shape := ⟨0, ![]⟩
abbrev S1600000x1 : Shape := ⟨2, ![1600000, 1]⟩
abbrev S1600000x64 : Shape := ⟨2, ![1600000, 64]⟩
abbrev S8000x64 : Shape := ⟨2, ![8000, 64]⟩
abbrev S8000x1 : Shape := ⟨2, ![8000, 1]⟩

abbrev nBuf : Space → Nat
  | .hbm => 22
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S1600000, .i32⟩
  | .hbm, ⟨3, _⟩ => ⟨S1600000, .i32⟩
  | .hbm, ⟨4, _⟩ => ⟨S1600000, .f32⟩
  | .hbm, ⟨5, _⟩ => ⟨S100000x64, .f32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x64, .f32⟩
  | .hbm, ⟨15, _⟩ => ⟨S1600000x1, .f32⟩
  | .hbm, ⟨16, _⟩ => ⟨S1600000x64, .f32⟩
  | .hbm, ⟨17, _⟩ => ⟨S_, .f32⟩
  | .hbm, ⟨18, _⟩ => ⟨S100000x64, .f32⟩
  | .hbm, ⟨19, _⟩ => ⟨S1600000x1, .i32⟩
  | .hbm, ⟨20, _⟩ => ⟨S100000x64, .f32⟩
  | .hbm, ⟨21, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S8000x64, .f32⟩
  | .local _ .vmem, ⟨6, _⟩ => ⟨S8000x64, .f32⟩
  | .local _ .vmem, ⟨7, _⟩ => ⟨S8000x1, .f32⟩
  | .local _ .vmem, ⟨8, _⟩ => ⟨S8000x1, .f32⟩
  | .local _ .vmem, ⟨9, _⟩ => ⟨S8000x64, .f32⟩
  | .local _ .vmem, ⟨10, _⟩ => ⟨S8000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S1600000_S1600000x1 : S1600000.ShapeCasts S1600000x1
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x64 : S8000x1.Broadcasts S8000x64
  bcast_S_S100000x64 : S_.BroadcastsInDim S100000x64 (![] : Fin 0 → Fin S100000x64.rank)
  shapeCasts_S10000x64_S10000x64 : S10000x64.ShapeCasts S10000x64
  dot_S10000x128_S128x64_S10000x64_1_0_0_1_n_n_wf : DotDims.WF S10000x128 S128x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S1600000x64.size a
  hwx1_0 : ∀ i : grid1.Coords, EltTy.bits .f32 = 32 ∨ (Rect.block (s := S1600000x64) S8000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x1.size a ≤ S1600000x1.size a
  hwx1_1 : ∀ i : grid1.Coords, EltTy.bits .f32 = 32 ∨ (Rect.block (s := S1600000x1) S8000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x64.size a ≤ S1600000x64.size a
  hwx1_2 : ∀ i : grid1.Coords, EltTy.bits .f32 = 32 ∨ (Rect.block (s := S1600000x64) S8000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v7) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S8000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S8000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v12) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S10000x64.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S100000x128 : Shape := ⟨2, ![100000, 128]⟩
abbrev S128x64 : Shape := ⟨2, ![128, 64]⟩
abbrev S1600000 : Shape := ⟨1, ![1600000]⟩
abbrev S100000x64 : Shape := ⟨2, ![100000, 64]⟩
abbrev S1600000x1 : Shape := ⟨2, ![1600000, 1]⟩
abbrev S_ : Shape := ⟨0, ![]⟩
abbrev S1600000x64 : Shape := ⟨2, ![1600000, 64]⟩

abbrev nBuf : Space → Nat
  | .hbm => 25
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S1600000, .i32⟩
  | .hbm, ⟨3, _⟩ => ⟨S1600000, .i32⟩
  | .hbm, ⟨4, _⟩ => ⟨S1600000, .f32⟩
  | .hbm, ⟨5, _⟩ => ⟨S100000x64, .f32⟩
  | .hbm, ⟨6, _⟩ => ⟨S1600000x1, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x64, .f32⟩
  | .hbm, ⟨16, _⟩ => ⟨S1600000x64, .f32⟩
  | .hbm, ⟨17, _⟩ => ⟨S1600000x64, .f32⟩
  | .hbm, ⟨18, _⟩ => ⟨S_, .f32⟩
  | .hbm, ⟨19, _⟩ => ⟨S100000x64, .f32⟩
  | .hbm, ⟨20, _⟩ => ⟨S1600000x1, .i32⟩
  | .hbm, ⟨21, _⟩ => ⟨S100000x64, .f32⟩
  | .hbm, ⟨22, _⟩ => ⟨S_, .f32⟩
  | .hbm, ⟨23, _⟩ => ⟨S100000x64, .f32⟩
  | .hbm, ⟨24, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.RunValue.lean ====
/-
  The idealized kernel's run with its RESULT named.

  @main is three kernel regions with two stretches of host operations between them. The buffer contents at each
  boundary form a fold from the launch memory: a region leaves each of its output arrays at what its blocks' write-backs
  assemble and every other buffer as it found it; a host stretch applies its operations in order. Every weakly fair
  execution terminates in a memory that agrees with the LAST boundary of that fold on every buffer that outlives the
  regions — in particular on the result array, which is what is recorded here beside the unchanged arguments.
-/
import proofs.«161525_j6502580486593_2_alg».proof.Proof.Gen.KernelIdeal.Frame

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last boundary's
    contents and the five argument arrays as launched. -/
theorem run_value : θ_run defs (onTc (τ := τ) (main (F := F))) ⟨m, fun _ => 0, ρ⟩ (fun r => ∀ c : Dev nD,
      r.2.mem ((c.tc : Thread nD τ).loc main_v13) = W5 m ρ c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v13 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.KernelIdeal.Conv

end
-- ==== Proof.Product.lean ====
/-
  The first kernel region: the dense product of the feature array with the weight matrix.

  The region runs over ten grid points; point `t` stages rows `10000·t … 10000·t + 9999` of the feature array (all
  128 columns) and the whole 128 × 64 weight matrix, forms the matrix product of the two blocks into a zero
  accumulator, and writes the block back to the same rows of the support array. The change of float format on the
  two operands is the identity on extended reals, and a product into a zero accumulator is the plain sum over the
  contracted axis. The ten blocks tile the hundred thousand rows, so the support array ends holding, at every index
  `(r, j)`, the sum over `k` of feature `(r, k)` times weight `(k, j)`. This is stated for ANY contents `V` the region is
  entered with.
-/
import proofs.«161525_j6502580486593_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Conv

open Cert.KernelIdeal Cert.KernelIdeal.Gen
open Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

/-- The matrix product of the whole feature array with the weight matrix, entry by entry a sum over the 128
    contracted positions. -/
abbrev product (x : S100000x128.Idx → EReal) (w : S128x64.Idx → EReal) : S100000x64.Idx → EReal :=
  fun i => ∑ k : Fin 128, x (ix2 (⟨(i 0).val, (i 0).isLt⟩ : Fin 100000) k) * w (ix2 k (⟨(i 1).val, (i 1).isLt⟩ : Fin 64))

theorem origin0 : (![0, 0] : Fin 2 → Nat) = fun _ => 0 := funext fun a => by fin_cases a <;> rfl

/-! The block product's operand indices: the left operand is read at the output's row and the contracted position,
    the right operand at the contracted position and the output's column. -/

theorem block_lhs_row (j : S10000x64.Idx) (q : dot_S10000x128_S128x64_S10000x64_1_0_0_1_n_n.contr.Idx) :
    (dot_S10000x128_S128x64_S10000x64_1_0_0_1_n_n.lhsIdx j q 0).val = (j 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem block_lhs_col (j : S10000x64.Idx) (q : dot_S10000x128_S128x64_S10000x64_1_0_0_1_n_n.contr.Idx) :
    (dot_S10000x128_S128x64_S10000x64_1_0_0_1_n_n.lhsIdx j q 1).val = (q ⟨0, by decide⟩).val :=
  dot_S10000x128_S128x64_S10000x64_1_0_0_1_n_n.lhsIdx_val_of_single rfl j q
theorem block_rhs_row (j : S10000x64.Idx) (q : dot_S10000x128_S128x64_S10000x64_1_0_0_1_n_n.contr.Idx) :
    (dot_S10000x128_S128x64_S10000x64_1_0_0_1_n_n.rhsIdx j q 0).val = (q ⟨0, by decide⟩).val :=
  dot_S10000x128_S128x64_S10000x64_1_0_0_1_n_n.rhsIdx_val_of_single rfl j q
theorem block_rhs_col (j : S10000x64.Idx) (q : dot_S10000x128_S128x64_S10000x64_1_0_0_1_n_n.contr.Idx) :
    (dot_S10000x128_S128x64_S10000x64_1_0_0_1_n_n.rhsIdx j q 1).val = (j 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- One entry of the body's stored value: the sum over the contracted position of the loaded feature entry in the
    output's row times the loaded weight entry in the output's column; so, where those are the arrays' entries in
    `i`'s row and `i`'s column, it is the whole product's entry at `i`. -/
theorem product_entry (x0 : Vec Ideal S10000x128 .f32) (x1 : Vec Ideal S128x64 .f32)
    (x : S100000x128.Idx → EReal) (w : S128x64.Idx → EReal) (j : S10000x64.Idx) (i : S100000x64.Idx)
    (h0 : ∀ k : Fin 128, x0 (ix2 (⟨(j 0).val, (j 0).isLt⟩ : Fin 10000) k) = x (ix2 (⟨(i 0).val, (i 0).isLt⟩ : Fin 100000) k))
    (h1 : ∀ k : Fin 128, x1 (ix2 k (⟨(j 1).val, (j 1).isLt⟩ : Fin 64)) = w (ix2 k (⟨(i 1).val, (i 1).isLt⟩ : Fin 64))) :
    k0_pay1 (F := Ideal) x0 x1 j = product x w i := by
  unfold k0_pay1
  show FloatOps.matmul dot_S10000x128_S128x64_S10000x64_1_0_0_1_n_n none (truncf (F := Ideal) .bf16 x0 _) (truncf (F := Ideal) .bf16 x1 _) (constant (F := Ideal) S10000x64 .f32 0x00000000#32) j = _
  rw [Ideal.matmul_constant_zero_apply, ← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx j ((contrEquiv1 dot_S10000x128_S128x64_S10000x64_1_0_0_1_n_n 128 rfl rfl).symm k) = ix2 (⟨(j 0).val, (j 0).isLt⟩ : Fin 10000) k := funext fun a => Fin.ext (by
    match a with
    | ⟨0, _⟩ => exact block_lhs_row _ _
    | ⟨1, _⟩ => exact (block_lhs_col _ _).trans hk)
  have er : dot_S10000x128_S128x64_S10000x64_1_0_0_1_n_n.rhsIdx j ((contrEquiv1 dot_S10000x128_S128x64_S10000x64_1_0_0_1_n_n 128 rfl rfl).symm k) = ix2 k (⟨(j 1).val, (j 1).isLt⟩ : Fin 64) := funext fun a => Fin.ext (by
    match a with
    | ⟨0, _⟩ => exact (block_rhs_row _ _).trans hk
    | ⟨1, _⟩ => exact block_rhs_col _ _)
  show x0 (dot_S10000x128_S128x64_S10000x64_1_0_0_1_n_n.lhsIdx j ((contrEquiv1 dot_S10000x128_S128x64_S10000x64_1_0_0_1_n_n 128 rfl rfl).symm k)) * x1 (dot_S10000x128_S128x64_S10000x64_1_0_0_1_n_n.rhsIdx j ((contrEquiv1 dot_S10000x128_S128x64_S10000x64_1_0_0_1_n_n 128 rfl rfl).symm k)) = _
  rw [el, er, h0 k, h1 k]

/-- Where the blocks sit: block `t` of the feature and support windows starts at row `10000·t`, column 0; the weight
    window's one block is the whole matrix. -/
theorem product_blocks : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product. -/
theorem product_flushed (c : Dev nD) (t : Fin cfg0.N) :
    (dat0 V c).flushed 2 t = ((cfg0.win 2).blk t).view.read (Elt Ideal) (product (V c main_arg0) (V c main_arg1)) := by
  show (cfg0.win 2).cut (grid0.coords t) ((dat0 V c).after 2 t) = _
  rw [after0_2]
  unfold out0_2
  rw [View.canon_unit_zero origin0]
  simp only [View.ld_unit_zero (S := S10000x128) origin0, View.ld_unit_zero (S := S128x64) origin0]
  obtain ⟨e0, e1, e2, e3, e4, e5⟩ := product_blocks t
  funext j
  refine product_entry _ _ (V c main_arg0) (V c main_arg1) j (((cfg0.win 2).blk t).view.emb j) (fun k => ?_) (fun k => ?_)
  · show V c main_arg0 (((cfg0.win 0).blk t).view.emb (ix2 (⟨(j 0).val, (j 0).isLt⟩ : Fin 10000) k)) = V c main_arg0 _
    refine congrArg (V c main_arg0) ?_
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  · show V c main_arg1 (((cfg0.win 1).blk t).view.emb (ix2 k (⟨(j 1).val, (j 1).isLt⟩ : Fin 64))) = V c main_arg1 _
    refine congrArg (V c main_arg1) ?_
    funext a; apply Fin.ext
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega

/-- An index of the support array is in point `t`'s block iff each coordinate is in the block's range. -/
theorem product_mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v0).slice (win0_2.rect t)).set ↔ _
  rw [View.set_slice_whole, Rect.mem_set_unit]
  exact Iff.rfl

/-- Every index is in some written-back block: row `r` is in block `r / 10000`. -/
theorem product_cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 10 := N_0
  let t : Fin cfg0.N := ⟨(i 0).val / 10000, by show _ < grid0.N; rw [hN]; omega⟩
  refine ⟨t, flush0_2 t, ?_⟩
  rw [product_mem_blk]
  obtain ⟨e0, e1, e2, e3, e4, e5⟩ := product_blocks t
  have ht : t.val = (i 0).val / 10000 := rfl
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- THE SUPPORT ARRAY after the region: the whole product of the feature array with the weight matrix. -/
theorem product_final (c : Dev nD) : (dat0 V c).arrAt 2 cfg0.N = product (V c main_arg0) (V c main_arg1) :=
  (dat0 V c).arrAt_eq_of_cover 2 (product (V c main_arg0) (V c main_arg1)) (fun t _ => product_flushed V c t) product_cover

end Cert.KernelIdeal.Conv

end
-- ==== Proof.Scaled.lean ====
/-
  The second kernel region: every gathered row scaled by its edge's weight.

  The region runs over two hundred grid points; point `t` stages rows `8000·t … 8000·t + 7999` of the gathered
  array (64 columns) and the same rows of the weight column (one column), multiplies each gathered entry by the
  weight of its row, and writes the block back to the same rows of the message array. The two hundred blocks tile
  the 1,600,000 rows, so the message array ends holding, at every index `(e, j)`, the gathered entry at `(e, j)`
  times the weight at `(e, 0)`. This is stated for ANY contents `V` the region is entered with.
-/
import proofs.«161525_j6502580486593_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Conv

open Cert.KernelIdeal Cert.KernelIdeal.Gen
open Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

/-- The weight column's index for the row of a message index. -/
abbrev weightAt (i : S1600000x64.Idx) : S1600000x1.Idx := ix2 (⟨(i 0).val, (i 0).isLt⟩ : Fin 1600000) (0 : Fin 1)

/-- Every gathered entry times the weight of its row. -/
abbrev scaled (g : S1600000x64.Idx → EReal) (col : S1600000x1.Idx → EReal) : S1600000x64.Idx → EReal :=
  fun i => g i * col (weightAt i)

theorem origin1 : (![0, 0] : Fin 2 → Nat) = fun _ => 0 := funext fun a => by fin_cases a <;> rfl

/-- One entry of the body's stored value: the loaded gathered entry times the loaded weight of its row; so, where
    those are the arrays' entries at `i` and at `i`'s row, it is the scaled array's entry at `i`. -/
theorem scale_entry (x0 : Vec Ideal S8000x64 .f32) (x1 : Vec Ideal S8000x1 .f32)
    (g : S1600000x64.Idx → EReal) (col : S1600000x1.Idx → EReal) (j : S8000x64.Idx) (i : S1600000x64.Idx)
    (h0 : x0 j = g i) (h1 : x1 (ix2 (⟨(j 0).val, (j 0).isLt⟩ : Fin 8000) (0 : Fin 1)) = col (weightAt i)) :
    k1_pay1 (F := Ideal) x0 x1 j = scaled g col i := by
  unfold k1_pay1
  show shapeCast S8000x64 x0 shapeCasts_S8000x64_S8000x64 j
      * broadcastTo S8000x64 (shapeCast S8000x1 x1 shapeCasts_S8000x1_S8000x1) broadcasts_S8000x1_S8000x64 j = g i * col (weightAt i)
  rw [shapeCast_self, shapeCast_self,
    broadcastTo_apply x1 broadcasts_S8000x1_S8000x64 j (ix2 (⟨(j 0).val, (j 0).isLt⟩ : Fin 8000) (0 : Fin 1)) (fun a => by
      match a with
      | ⟨0, _⟩ => show (j 0).val = if (8000 : Nat) = 1 then 0 else (j 0).val; rw [if_neg (by decide)]
      | ⟨1, _⟩ => show 0 = if (1 : Nat) = 1 then 0 else (j 1).val; rw [if_pos rfl]),
    h0, h1]

/-- Where the blocks sit: block `t` of each of the three windows starts at row `8000·t`, column 0. -/
theorem scale_blocks : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the scaled array. -/
theorem scale_flushed (c : Dev nD) (t : Fin cfg1.N) :
    (dat1 V c).flushed 2 t = ((cfg1.win 2).blk t).view.read (Elt Ideal) (scaled (V c main_v7) (V c main_v8)) := by
  show (cfg1.win 2).cut (grid1.coords t) ((dat1 V c).after 2 t) = _
  rw [after1_2]
  unfold out1_2
  rw [View.canon_unit_zero origin1]
  simp only [View.ld_unit_zero (S := S8000x64) origin1, View.ld_unit_zero (S := S8000x1) origin1]
  obtain ⟨e0, e1, e2, e3, e4, e5⟩ := scale_blocks t
  funext j
  refine scale_entry _ _ (V c main_v7) (V c main_v8) j (((cfg1.win 2).blk t).view.emb j) ?_ ?_
  · show V c main_v7 (((cfg1.win 0).blk t).view.emb j) = V c main_v7 (((cfg1.win 2).blk t).view.emb j)
    refine congrArg (V c main_v7) ?_
    funext a; apply Fin.ext
    match a with
    | ⟨0, _⟩ => show win1_0.index t (0 : Fin 2) * 8000 + 1 * (j 0).val = win1_2.index t (0 : Fin 2) * 8000 + 1 * (j 0).val; omega
    | ⟨1, _⟩ => show win1_0.index t (1 : Fin 2) * 64 + 1 * (j 1).val = win1_2.index t (1 : Fin 2) * 64 + 1 * (j 1).val; omega
  · show V c main_v8 (((cfg1.win 1).blk t).view.emb (ix2 (⟨(j 0).val, (j 0).isLt⟩ : Fin 8000) (0 : Fin 1)))
        = V c main_v8 (weightAt (((cfg1.win 2).blk t).view.emb j))
    refine congrArg (V c main_v8) ?_
    funext a; apply Fin.ext
    match a with
    | ⟨0, _⟩ => show win1_1.index t (0 : Fin 2) * 8000 + 1 * (j 0).val = win1_2.index t (0 : Fin 2) * 8000 + 1 * (j 0).val; omega
    | ⟨1, _⟩ => show win1_1.index t (1 : Fin 2) * 1 + 1 * 0 = 0; omega

/-- An index of the message array is in point `t`'s block iff each coordinate is in the block's range. -/
theorem scale_mem_blk (t : Fin cfg1.N) (i : S1600000x64.Idx) :
    i ∈ ((cfg1.win 2).blk t).view.set ↔ ∀ a : Fin 2, win1_2.index t a * S8000x64.size a ≤ (i a).val ∧ (i a).val < win1_2.index t a * S8000x64.size a + S8000x64.size a := by
  show i ∈ ((View.whole main_v9).slice (win1_2.rect t)).set ↔ _
  rw [View.set_slice_whole, Rect.mem_set_unit]
  exact Iff.rfl

/-- Every index is in some written-back block: row `e` is in block `e / 8000`. -/
theorem scale_cover (i : S1600000x64.Idx) : ∃ t : Fin cfg1.N, (cfg1.win 2).flush t = true ∧ i ∈ ((cfg1.win 2).blk t).view.set := by
  have hi0 : (i 0).val < 1600000 := (i 0).isLt
  have hi1 : (i 1).val < 64 := (i 1).isLt
  have hN : grid1.N = 200 := N_1
  let t : Fin cfg1.N := ⟨(i 0).val / 8000, by show _ < grid1.N; rw [hN]; omega⟩
  refine ⟨t, flush1_2 t, ?_⟩
  rw [scale_mem_blk]
  obtain ⟨e0, e1, e2, e3, e4, e5⟩ := scale_blocks t
  have ht : t.val = (i 0).val / 8000 := rfl
  intro a
  match a with
  | ⟨0, _⟩ => show win1_2.index t (0 : Fin 2) * 8000 ≤ (i 0).val ∧ (i 0).val < win1_2.index t (0 : Fin 2) * 8000 + 8000; omega
  | ⟨1, _⟩ => show win1_2.index t (1 : Fin 2) * 64 ≤ (i 1).val ∧ (i 1).val < win1_2.index t (1 : Fin 2) * 64 + 64; omega

/-- THE MESSAGE ARRAY after the region: the gathered array scaled row by row by the weight column. -/
theorem scale_final (c : Dev nD) : (dat1 V c).arrAt 2 cfg1.N = scaled (V c main_v7) (V c main_v8) :=
  (dat1 V c).arrAt_eq_of_cover 2 (scaled (V c main_v7) (V c main_v8)) (fun t _ => scale_flushed V c t) scale_cover

end Cert.KernelIdeal.Conv

end
-- ==== Proof.Relu.lean ====
/-
  The third kernel region: the rectifier.

  The region runs over ten grid points; point `t` stages rows `10000·t … 10000·t + 9999` of the aggregated array
  (all 64 columns), takes the larger of each entry and zero, and writes the block back to the same rows of the
  result array. The ten blocks tile the hundred thousand rows, so the result array ends holding, at every index,
  the larger of the aggregated entry and zero — the elementwise maximum of the whole aggregated array with the
  zero array. This is stated for ANY contents `V` the region is entered with.
-/
import proofs.«161525_j6502580486593_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Conv

open Cert.KernelIdeal Cert.KernelIdeal.Gen
open Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

/-- The aggregated array against the zero array, entry by entry the larger of the two. -/
abbrev rectified (a : S100000x64.Idx → EReal) : S100000x64.Idx → EReal :=
  maximumf (F := Ideal) (φ := .f32) a (broadcastInDim S100000x64 ![] bcast_S_S100000x64 (constant (F := Ideal) S_ .f32 0x00000000#32))

theorem origin2 : (![0, 0] : Fin 2 → Nat) = fun _ => 0 := funext fun a => by fin_cases a <;> rfl

/-- The zero array reads zero's word at every index. -/
theorem zeros_apply (i : S100000x64.Idx) :
    broadcastInDim S100000x64 ![] bcast_S_S100000x64 (constant (F := Ideal) S_ .f32 0x00000000#32) i = Ideal.ofBits .f32 0x00000000#32 :=
  broadcastInDim_apply _ bcast_S_S100000x64 (constant (F := Ideal) S_ .f32 0x00000000#32) i ix0 (fun a => a.elim0)

/-- One entry of the body's stored value: the larger of the loaded entry and zero; so, where the loaded entry is
    the array's entry at `i`, it is the rectified array's entry at `i`. -/
theorem relu_entry (x0 : Vec Ideal S10000x64 .f32) (a : S100000x64.Idx → EReal) (j : S10000x64.Idx) (i : S100000x64.Idx)
    (h0 : x0 j = a i) : k2_pay1 (F := Ideal) x0 j = rectified a i := by
  unfold k2_pay1
  show max (shapeCast S10000x64 x0 shapeCasts_S10000x64_S10000x64 j) (Ideal.ofBits .f32 0x00000000#32) = max (a i) _
  rw [zeros_apply, shapeCast_self, h0]

/-- Where the blocks sit: block `t` of either window starts at row `10000·t`, column 0. -/
theorem relu_blocks : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

/-- What point `t` writes back is block `t` of the rectified array. -/
theorem relu_flushed (c : Dev nD) (t : Fin cfg2.N) :
    (dat2 V c).flushed 1 t = ((cfg2.win 1).blk t).view.read (Elt Ideal) (rectified (V c main_v12)) := by
  show (cfg2.win 1).cut (grid2.coords t) ((dat2 V c).after 1 t) = _
  rw [after2_1]
  unfold out2_1
  rw [View.canon_unit_zero origin2]
  simp only [View.ld_unit_zero (S := S10000x64) origin2]
  obtain ⟨e0, e1, e2, e3⟩ := relu_blocks t
  funext j
  refine relu_entry _ (V c main_v12) j (((cfg2.win 1).blk t).view.emb j) ?_
  show V c main_v12 (((cfg2.win 0).blk t).view.emb j) = V c main_v12 (((cfg2.win 1).blk t).view.emb j)
  refine congrArg (V c main_v12) ?_
  funext a; apply Fin.ext
  match a with
  | ⟨0, _⟩ => show win2_0.index t (0 : Fin 2) * 10000 + 1 * (j 0).val = win2_1.index t (0 : Fin 2) * 10000 + 1 * (j 0).val; omega
  | ⟨1, _⟩ => show win2_0.index t (1 : Fin 2) * 64 + 1 * (j 1).val = win2_1.index t (1 : Fin 2) * 64 + 1 * (j 1).val; omega

/-- An index of the result array is in point `t`'s block iff each coordinate is in the block's range. -/
theorem relu_mem_blk (t : Fin cfg2.N) (i : S100000x64.Idx) :
    i ∈ ((cfg2.win 1).blk t).view.set ↔ ∀ a : Fin 2, win2_1.index t a * S10000x64.size a ≤ (i a).val ∧ (i a).val < win2_1.index t a * S10000x64.size a + S10000x64.size a := by
  show i ∈ ((View.whole main_v13).slice (win2_1.rect t)).set ↔ _
  rw [View.set_slice_whole, Rect.mem_set_unit]
  exact Iff.rfl

/-- Every index is in some written-back block: row `r` is in block `r / 10000`. -/
theorem relu_cover (i : S100000x64.Idx) : ∃ t : Fin cfg2.N, (cfg2.win 1).flush t = true ∧ i ∈ ((cfg2.win 1).blk t).view.set := by
  have hi0 : (i 0).val < 100000 := (i 0).isLt
  have hi1 : (i 1).val < 64 := (i 1).isLt
  have hN : grid2.N = 10 := N_2
  let t : Fin cfg2.N := ⟨(i 0).val / 10000, by show _ < grid2.N; rw [hN]; omega⟩
  refine ⟨t, flush2_1 t, ?_⟩
  rw [relu_mem_blk]
  obtain ⟨e0, e1, e2, e3⟩ := relu_blocks t
  have ht : t.val = (i 0).val / 10000 := rfl
  intro a
  match a with
  | ⟨0, _⟩ => show win2_1.index t (0 : Fin 2) * 10000 ≤ (i 0).val ∧ (i 0).val < win2_1.index t (0 : Fin 2) * 10000 + 10000; omega
  | ⟨1, _⟩ => show win2_1.index t (1 : Fin 2) * 64 ≤ (i 1).val ∧ (i 1).val < win2_1.index t (1 : Fin 2) * 64 + 64; omega

/-- THE RESULT ARRAY after the region: the rectified aggregated array. -/
theorem relu_final (c : Dev nD) : (dat2 V c).arrAt 1 cfg2.N = rectified (V c main_v12) :=
  (dat2 V c).arrAt_eq_of_cover 1 (rectified (V c main_v12)) (fun t _ => relu_flushed V c t) relu_cover

end Cert.KernelIdeal.Conv

end
-- ==== Proof.Chain.lean ====
/-
  The kernel's result is the reference's, as one function of the five argument arrays.

  The buffer contents at the region boundaries form a fold from the launch memory. Walking it forwards:
  * after the first region the support array is the whole product of the feature array with the weight matrix —
    the reference's `dot_general`, both being, entry by entry, the same sum over the contracted axis;
  * the first host stretch wraps negative column indices, gathers the support rows they name, and reshapes the
    weight vector to a column — the operations the reference applies, in the same order, to the same operands;
  * after the second region the message array is every gathered row scaled by its weight. The kernel multiplies the
    gathered entry by the weight, the reference the weight by the gathered entry: the two agree because the product
    of extended reals is commutative (no finiteness is needed), and because the reshaped column and the reference's
    broadcast column both read the weight vector at the row;
  * the second host stretch scatter-adds the messages into a zero array at the row indices, exactly as the
    reference does;
  * after the third region the result is the elementwise maximum of that sum with zero, as in the reference.
  None of the arguments is written on the way, so every operand above is the launch contents of its argument.
-/
import proofs.«161525_j6502580486593_2_alg».proof.Proof.Product
import proofs.«161525_j6502580486593_2_alg».proof.Proof.Scaled
import proofs.«161525_j6502580486593_2_alg».proof.Proof.Relu
import proofs.«161525_j6502580486593_2_alg».proof.Proof.Gen.ReferenceIdeal.Read
import Idealize.ShloMosaic.Lib.StableHlo.Run

set_option maxRecDepth 16384

noncomputable section

namespace Cert.KernelIdeal.Conv

open Cert.KernelIdeal Cert.KernelIdeal.Gen
open Idealize.ShloMosaic Idealize.ShloMosaic.TcCoe Idealize.SL.Sem Idealize.ShloMosaic.StableHlo
open Idealize.ShloMosaic.Pipeline (Dat Cfg Window)
open Idealize.ShloMosaic.ValueIdx
open Cert.ReferenceIdeal.Read

variable (m : (ℓ : Loc nD τ sig) → Buf (Elt Ideal) ℓ) (ρ : Dev nD → PrngReg)

/-! ## The two pure identities -/

/-- The whole product, entry by entry a sum over the contracted axis, is the reference's `dot_general`. -/
theorem product_eq_dot (x : (⟨S100000x128, .f32⟩ : BufTy).Contents (Elt Ideal)) (w : (⟨S128x64, .f32⟩ : BufTy).Contents (Elt Ideal)) :
    product x w = val_main_v0 (F := Ideal) x w := by
  funext i
  rw [val_main_v0_apply]
  refine Finset.sum_congr rfl fun k _ => ?_
  have el : lidx_main_v0 i k = ix2 (⟨(i 0).val, (i 0).isLt⟩ : Fin 100000) k :=
    funext fun a => by match a with | ⟨0, _⟩ => rfl | ⟨1, _⟩ => rfl
  have er : ridx_main_v0 i k = ix2 k (⟨(i 1).val, (i 1).isLt⟩ : Fin 64) :=
    funext fun a => by match a with | ⟨0, _⟩ => rfl | ⟨1, _⟩ => rfl
  rw [el, er]

/-- The weight vector reshaped to a column, read at a message index's row, is the reference's weight column broadcast
    along the 64 columns, read at that index: both are the weight of the row. -/
theorem weight_at (x4 : (⟨S1600000, .f32⟩ : BufTy).Contents (Elt Ideal)) (i : S1600000x64.Idx) :
    shapeCast S1600000x1 x4 shapeCasts_S1600000_S1600000x1 (weightAt i) = val_main_v9 (F := Ideal) x4 i := by
  rw [val_main_v9_apply, val_main_v1_apply]
  exact shapeCast_apply x4 shapeCasts_S1600000_S1600000x1 (weightAt i) (idx_main_v1 (idx_main_v9 i)) (by
    rw [Shape.rowMajor_val_one, Shape.rowMajor_val_two]
    show (i 0).val = (i 0).val * 1 + 0
    omega)

/-! ## The arguments at the later boundaries: nothing writes them -/

theorem W1_arg2 (c : Dev nD) : W1 m ρ c (Proc.devRef .tc main_arg2) = m ((c : Thread nD τ).loc main_arg2) :=
  (W1_of_ne m ρ c main_arg2 (by decide)).trans rfl
theorem W1_arg3 (c : Dev nD) : W1 m ρ c (Proc.devRef .tc main_arg3) = m ((c : Thread nD τ).loc main_arg3) :=
  (W1_of_ne m ρ c main_arg3 (by decide)).trans rfl
theorem W1_arg4 (c : Dev nD) : W1 m ρ c (Proc.devRef .tc main_arg4) = m ((c : Thread nD τ).loc main_arg4) :=
  (W1_of_ne m ρ c main_arg4 (by decide)).trans rfl
theorem W3_arg2 (c : Dev nD) : W3 m ρ c (Proc.devRef .tc main_arg2) = m ((c : Thread nD τ).loc main_arg2) := by
  rw [W3_of_ne m ρ c main_arg2 (by decide)]
  show StableHlo.after hostOps1 (W1 m ρ c) (Proc.devRef .tc main_arg2) = _
  after_results
  exact W1_arg2 m ρ c

/-! ## The fold, boundary by boundary -/

/-- After the first region: the support array is the reference's `dot_general` of the feature array and the weights. -/
theorem support_eq (c : Dev nD) :
    W1 m ρ c (Proc.devRef .tc main_v0) = val_main_v0 (F := Ideal) (m ((c : Thread nD τ).loc main_arg0)) (m ((c : Thread nD τ).loc main_arg1)) :=
  (W1_arr m ρ c 2).trans ((product_final (V0 m ρ) c).trans (product_eq_dot _ _))

/-- After the first host stretch: the gathered array is the reference's gather of that product at the wrapped
    column indices. -/
theorem gathered_eq (c : Dev nD) :
    V2 m ρ c main_v7 = val_main_v8 (F := Ideal) (m ((c : Thread nD τ).loc main_arg0)) (m ((c : Thread nD τ).loc main_arg1)) (m ((c : Thread nD τ).loc main_arg3)) := by
  show StableHlo.after hostOps1 (W1 m ρ c) (Proc.devRef .tc main_v7) = _
  after_results
  rw [support_eq, W1_arg3]
  rfl

/-- After the first host stretch: the weight column is the weight vector reshaped. -/
theorem weights_eq (c : Dev nD) :
    V2 m ρ c main_v8 = shapeCast S1600000x1 (m ((c : Thread nD τ).loc main_arg4)) shapeCasts_S1600000_S1600000x1 := by
  show StableHlo.after hostOps1 (W1 m ρ c) (Proc.devRef .tc main_v8) = _
  after_results
  rw [W1_arg4]
  rfl

/-- After the second region: the message array is the reference's product of the broadcast weights with the
    gathered rows (the factors in the other order). -/
theorem messages_eq (c : Dev nD) :
    W3 m ρ c (Proc.devRef .tc main_v9) = val_main_v10 (F := Ideal) (m ((c : Thread nD τ).loc main_arg0)) (m ((c : Thread nD τ).loc main_arg1)) (m ((c : Thread nD τ).loc main_arg3)) (m ((c : Thread nD τ).loc main_arg4)) := by
  refine (W3_arr m ρ c 2).trans ((scale_final (V2 m ρ) c).trans ?_)
  rw [gathered_eq, weights_eq]
  funext i
  show val_main_v8 (F := Ideal) (m ((c : Thread nD τ).loc main_arg0)) (m ((c : Thread nD τ).loc main_arg1)) (m ((c : Thread nD τ).loc main_arg3)) i
        * shapeCast S1600000x1 (m ((c : Thread nD τ).loc main_arg4)) shapeCasts_S1600000_S1600000x1 (weightAt i)
      = val_main_v9 (F := Ideal) (m ((c : Thread nD τ).loc main_arg4)) i * val_main_v8 (F := Ideal) (m ((c : Thread nD τ).loc main_arg0)) (m ((c : Thread nD τ).loc main_arg1)) (m ((c : Thread nD τ).loc main_arg3)) i
  rw [weight_at, mul_comm]

/-- After the second host stretch: the aggregated array is the reference's scatter-add of the messages into zeros. -/
theorem aggregated_eq (c : Dev nD) :
    V4 m ρ c main_v12 = val_main_v13 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps2 (W3 m ρ c) (Proc.devRef .tc main_v12) = _
  after_results
  rw [W3_arg2, messages_eq]
  rfl

/-- THE RESULT: at the last boundary the result array is the reference's result term of the launch arguments. -/
theorem result_eq (c : Dev nD) :
    W5 m ρ c (Proc.devRef .tc main_v13) = val_main_v14 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W5_arr m ρ c 1).trans ((relu_final (V4 m ρ) c).trans ?_)
  rw [aggregated_eq]
  rfl

end Cert.KernelIdeal.Conv

end
-- ==== Proof.lean ====
/-
  A graph-convolution layer: relu( Σ_{e : row e = r} val e · (x · W)[col e] ), as a kernel of three on-chip regions with
  host gather and scatter-add between them, against the same layer written with whole-array operations.

  On the extended reals the two programs compute one function of the five arguments:
  * the kernel's first region forms `x · W` block of rows by block of rows, each block a matrix product into a zero
    accumulator of operands whose change of float format is the identity; the blocks tile the rows, and entry by
    entry this is the reference's one whole product, the same sum over the contracted axis;
  * both programs then wrap negative column indices and gather the product's rows with the same operation;
  * the kernel's second region multiplies each gathered entry by its edge's weight, the reference the weight by the
    gathered entry: equal because multiplication of extended reals is commutative — the only law used, and it needs
    no finiteness, so the precondition is never opened;
  * both programs scatter-add the messages into a zero array at the row indices with the same operation;
  * the kernel's third region takes the maximum with zero block by block, the reference on the whole array.
  The idealization rewrote nothing, so that it is sanctioned is trivially true. The three programs' runs terminate
  without faulting and leave the arguments as launched: for the two kernels by their region-by-region run, for the
  reference by its straight-line run.
-/
import proofs.«161525_j6502580486593_2_alg».proof.Defs
import proofs.«161525_j6502580486593_2_alg».proof.Proof.Gen.Kernel
import proofs.«161525_j6502580486593_2_alg».proof.Proof.Gen.Kernel.Skeleton
import proofs.«161525_j6502580486593_2_alg».proof.Proof.Gen.Kernel.Launch
import proofs.«161525_j6502580486593_2_alg».proof.Proof.Gen.Kernel.Points
import proofs.«161525_j6502580486593_2_alg».proof.Proof.Gen.Kernel.Frame
import proofs.«161525_j6502580486593_2_alg».proof.Proof.Gen.KernelIdeal
import proofs.«161525_j6502580486593_2_alg».proof.Proof.Gen.KernelIdeal.Skeleton
import proofs.«161525_j6502580486593_2_alg».proof.Proof.Gen.KernelIdeal.Launch
import proofs.«161525_j6502580486593_2_alg».proof.Proof.Gen.KernelIdeal.Points
import proofs.«161525_j6502580486593_2_alg».proof.Proof.Gen.KernelIdeal.Frame
import proofs.«161525_j6502580486593_2_alg».proof.Proof.Gen.ReferenceIdeal
import proofs.«161525_j6502580486593_2_alg».proof.Proof.Gen.ReferenceIdeal.Run
import proofs.«161525_j6502580486593_2_alg».proof.Proof.Gen.ReferenceIdeal.Read
import proofs.«161525_j6502580486593_2_alg».proof.Proof.Gen.Pre_finite_inputs
import proofs.«161525_j6502580486593_2_alg».proof.Proof.RunValue
import proofs.«161525_j6502580486593_2_alg».proof.Proof.Chain
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- The idealized kernel runs and leaves its arguments as launched. -/
theorem frame_kernelIdeal : Cert.frame_KernelIdeal := fun m ρ _ => Cert.KernelIdeal.Gen.frame m ρ

/-- The idealized reference runs and leaves its arguments as launched: its straight-line run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the result array at the reference's
    result term of the kernel's launch arguments: the kernel by its region-by-region fold, the reference by its run
    with the agreement rewritten in. -/
theorem algebraic : Cert.algebraic_KernelIdeal_ReferenceIdeal := by
  intro m ρ m' ρ' _ hagree
  refine ⟨fun c => Cert.ReferenceIdeal.Read.val_main_v14 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono (fun r h c => ⟨(h c).1.trans (Cert.KernelIdeal.Conv.result_eq m ρ c), (h c).2⟩)
      (Cert.KernelIdeal.Conv.run_value m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
